-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6561x1 : Shape := ⟨2, ![6561, 1]⟩
abbrev S3x3 : Shape := ⟨2, ![3, 3]⟩
abbrev S_ : Shape := ⟨0, ![]⟩

class Facts : Prop where
  bcast_S_S6561x1 : S_.BroadcastsInDim S6561x1 (![] : Fin 0 → Fin S6561x1.rank)
  reducesTo_S6561x1_S_d0_1 : S6561x1.ReducesTo [0, 1] S_
  h_S_ : 0 < S_.numel
  bcast_S_S3x3 : S_.BroadcastsInDim S3x3 (![] : Fin 0 → Fin S3x3.rank)
  reducesTo_S3x3_S_d0_1 : S3x3.ReducesTo [0, 1] S_

variable [Facts]

def fn {F : FTy → Type} [FloatOps F] (main_arg0 : FVec F S6561x1 .f32) (main_arg1 : FVec F S3x3 .f32) : IVec S_ 1 :=
  let main_v0 : FVec F S6561x1 .f32 := Host.absf main_arg0
  let main_cst : FVec F S_ .f32 := constant S_ .f32 0x7F800000#32
  let main_v1 : FVec F S6561x1 .f32 := broadcastInDim S6561x1 ![] bcast_S_S6561x1 main_cst
  let main_v2 : IVec S6561x1 1 := cmpf .olt main_v0 main_v1
  let main_c : IVec S_ 1 := constantI S_ 1 1#1
  let main_v3 : IVec S_ 1 := (fun x v => Host.reduce IntOp.andi x v reducesTo_S6561x1_S_d0_1 h_S_) main_v2 main_c
  let main_v4 : FVec F S3x3 .f32 := Host.absf main_arg1
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  main_v8
-- ==== Kernel.lean ====
abbrev S6561x1 : Shape := ⟨2, ![6561, 1]⟩
abbrev S3x3 : Shape := ⟨2, ![3, 3]⟩
abbrev S27x3x81 : Shape := ⟨3, ![27, 3, 81]⟩
abbrev S1x1 : Shape := ⟨2, ![1, 1]⟩
abbrev S27x1x81 : Shape := ⟨3, ![27, 1, 81]⟩
abbrev S27x81 : Shape := ⟨2, ![27, 81]⟩

abbrev nBuf : Space → Nat
  | .hbm => 5
  | .vmem => 3
  | .smem => 0
  | _ => 0

abbrev bufTy : (tb : Table) → Fin (tcTables nBuf tb) → BufTy
  | .hbm, ⟨0, _⟩ => ⟨S6561x1, .f32⟩
  | .hbm, ⟨1, _⟩ => ⟨S3x3, .f32⟩
  | .hbm, ⟨2, _⟩ => ⟨S27x3x81, .f32⟩
  | .hbm, ⟨3, _⟩ => ⟨S27x3x81, .f32⟩
  | .hbm, ⟨4, _⟩ => ⟨S6561x1, .f32⟩
  | .local _ .vmem, ⟨0, _⟩ => ⟨S27x3x81, .f32⟩
  | .local _ .vmem, ⟨1, _⟩ => ⟨S3x3, .f32⟩
  | .local _ .vmem, ⟨2, _⟩ => ⟨S27x3x81, .f32⟩
  | _, _ => ⟨S6561x1, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S27x3x81 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S27x3x81 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S6561x1_S27x3x81 : S6561x1.ShapeCasts S27x3x81
  inb_S27x3x81_S27x3x81_0_0_0 : ∀ a, (![0, 0, 0] : Fin 3 → Nat) a + S27x3x81.size a ≤ S27x3x81.size a
  h_S27x3x81 : 0 < S27x3x81.numel
  shapeCasts_S27x3x81_S27x3x81 : S27x3x81.ShapeCasts S27x3x81
  inb_S3x3_S3x3_0_0 : ∀ a, (![0, 0] : Fin 2 → Nat) a + S3x3.size a ≤ S3x3.size a
  h_S3x3 : 0 < S3x3.numel
  slices_S3x3_o0_0_S1x1 : S3x3.Slices ![0, 0] S1x1
  inpos_S1x1_p0_0 : ∀ a, (![0, 0] : Fin 2 → Nat) a < S1x1.size a
  slices_S27x3x81_o0_0_0_S27x1x81 : S27x3x81.Slices ![0, 0, 0] S27x1x81
  shapeCasts_S27x1x81_S27x81 : S27x1x81.ShapeCasts S27x81
  slices_S3x3_o0_1_S1x1 : S3x3.Slices ![0, 1] S1x1
  slices_S27x3x81_o0_1_0_S27x1x81 : S27x3x81.Slices ![0, 1, 0] S27x1x81
  slices_S3x3_o0_2_S1x1 : S3x3.Slices ![0, 2] S1x1
  slices_S27x3x81_o0_2_0_S27x1x81 : S27x3x81.Slices ![0, 2, 0] S27x1x81
  inb_S27x3x81_S27x1x81_0_0_0 : ∀ a, (![0, 0, 0] : Fin 3 → Nat) a + S27x1x81.size a ≤ S27x3x81.size a
  h_S27x1x81 : 0 < S27x1x81.numel
  shapeCasts_S27x81_S27x1x81 : S27x81.ShapeCasts S27x1x81
  slices_S3x3_o1_0_S1x1 : S3x3.Slices ![1, 0] S1x1
  slices_S3x3_o1_1_S1x1 : S3x3.Slices ![1, 1] S1x1
  slices_S3x3_o1_2_S1x1 : S3x3.Slices ![1, 2] S1x1
  inb_S27x3x81_S27x1x81_0_1_0 : ∀ a, (![0, 1, 0] : Fin 3 → Nat) a + S27x1x81.size a ≤ S27x3x81.size a
  slices_S3x3_o2_0_S1x1 : S3x3.Slices ![2, 0] S1x1
  slices_S3x3_o2_1_S1x1 : S3x3.Slices ![2, 1] S1x1
  slices_S3x3_o2_2_S1x1 : S3x3.Slices ![2, 2] S1x1
  inb_S27x3x81_S27x1x81_0_2_0 : ∀ a, (![0, 2, 0] : Fin 3 → Nat) a + S27x1x81.size a ≤ S27x3x81.size a
  shapeCasts_S27x3x81_S6561x1 : S27x3x81.ShapeCasts S6561x1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S27x3x81.size a ≤ S27x3x81.size a
  hwx0_0 : ∀ i : grid0.Coords, EltTy.bits .f32 = 32 ∨ (Rect.block (s := S27x3x81) S27x3x81.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3.size a ≤ S3x3.size a
  hwx0_1 : ∀ i : grid0.Coords, EltTy.bits .f32 = 32 ∨ (Rect.block (s := S3x3) S3x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S27x3x81.size a ≤ S27x3x81.size a
  hwx0_2 : ∀ i : grid0.Coords, EltTy.bits .f32 = 32 ∨ (Rect.block (s := S27x3x81) S27x3x81.size (cc0_transform_2 i) (hinb0_2 i)).WholeWords (EltTy.packing .f32)

variable [Facts₀]

abbrev win0_0 : Pipeline.Window sig grid0 :=
  Pipeline.Window.ofSpec (Memref.whole main_v0) S27x3x81.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S27x3x81.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S6561x1 : Shape := ⟨2, ![6561, 1]⟩
abbrev S3x3 : Shape := ⟨2, ![3, 3]⟩
abbrev S_ : Shape := ⟨0, ![]⟩
abbrev S1x1 : Shape := ⟨2, ![1, 1]⟩
abbrev S1x1x1x1 : Shape := ⟨4, ![1, 1, 1, 1]⟩
abbrev S1x3x1x3 : Shape := ⟨4, ![1, 3, 1, 3]⟩
abbrev S3x1x3x1 : Shape := ⟨4, ![3, 1, 3, 1]⟩
abbrev S3x3x3x3 : Shape := ⟨4, ![3, 3, 3, 3]⟩
abbrev S9x9 : Shape := ⟨2, ![9, 9]⟩
abbrev S9x1x9x1 : Shape := ⟨4, ![9, 1, 9, 1]⟩
abbrev S9x3x9x3 : Shape := ⟨4, ![9, 3, 9, 3]⟩
abbrev S27x27 : Shape := ⟨2, ![27, 27]⟩
abbrev S27x1x27x1 : Shape := ⟨4, ![27, 1, 27, 1]⟩
abbrev S27x3x27x3 : Shape := ⟨4, ![27, 3, 27, 3]⟩
abbrev S81x81 : Shape := ⟨2, ![81, 81]⟩
abbrev S81x1x81x1 : Shape := ⟨4, ![81, 1, 81, 1]⟩
abbrev S81x3x81x3 : Shape := ⟨4, ![81, 3, 81, 3]⟩
abbrev S243x243 : Shape := ⟨2, ![243, 243]⟩
abbrev S243x1x243x1 : Shape := ⟨4, ![243, 1, 243, 1]⟩
abbrev S243x3x243x3 : Shape := ⟨4, ![243, 3, 243, 3]⟩
abbrev S729x729 : Shape := ⟨2, ![729, 729]⟩
abbrev S729x1x729x1 : Shape := ⟨4, ![729, 1, 729, 1]⟩
abbrev S729x3x729x3 : Shape := ⟨4, ![729, 3, 729, 3]⟩
abbrev S2187x2187 : Shape := ⟨2, ![2187, 2187]⟩
abbrev S2187x1x2187x1 : Shape := ⟨4, ![2187, 1, 2187, 1]⟩
abbrev S2187x3x2187x3 : Shape := ⟨4, ![2187, 3, 2187, 3]⟩
abbrev S6561x6561 : Shape := ⟨2, ![6561, 6561]⟩

abbrev nBuf : Space → Nat
  | .hbm => 64
  | .vmem => 0
  | .smem => 0
  | _ => 0

abbrev bufTy : (tb : Table) → Fin (tcTables nBuf tb) → BufTy
  | .hbm, ⟨0, _⟩ => ⟨S6561x1, .f32⟩
  | .hbm, ⟨1, _⟩ => ⟨S3x3, .f32⟩
  | .hbm, ⟨2, _⟩ => ⟨S3x3, .i32⟩
  | .hbm, ⟨3, _⟩ => ⟨S3x3, .i32⟩
  | .hbm, ⟨4, _⟩ => ⟨S_, .i32⟩
  | .hbm, ⟨5, _⟩ => ⟨S3x3, .i32⟩
  | .hbm, ⟨6, _⟩ => ⟨S3x3, .i32⟩
  | .hbm, ⟨7, _⟩ => ⟨S3x3, .i1⟩
  | .hbm, ⟨8, _⟩ => ⟨S3x3, .f32⟩
  | .hbm, ⟨9, _⟩ => ⟨S1x1, .i32⟩
  | .hbm, ⟨10, _⟩ => ⟨S1x1, .i32⟩
  | .hbm, ⟨11, _⟩ => ⟨S_, .i32⟩
  | .hbm, ⟨12, _⟩ => ⟨S1x1, .i32⟩
  | .hbm, ⟨13, _⟩ => ⟨S1x1, .i32⟩
  | .hbm, ⟨14, _⟩ => ⟨S1x1, .i1⟩
  | .hbm, ⟨15, _⟩ => ⟨S1x1, .f32⟩
  | .hbm, ⟨16, _⟩ => ⟨S1x1x1x1, .f32⟩
  | .hbm, ⟨17, _⟩ => ⟨S1x3x1x3, .f32⟩
  | .hbm, ⟨18, _⟩ => ⟨S1x3x1x3, .f32⟩
  | .hbm, ⟨19, _⟩ => ⟨S1x3x1x3, .f32⟩
  | .hbm, ⟨20, _⟩ => ⟨S3x3, .f32⟩
  | .hbm, ⟨21, _⟩ => ⟨S3x1x3x1, .f32⟩
  | .hbm, ⟨22, _⟩ => ⟨S1x3x1x3, .f32⟩
  | .hbm, ⟨23, _⟩ => ⟨S3x3x3x3, .f32⟩
  | .hbm, ⟨24, _⟩ => ⟨S3x3x3x3, .f32⟩
  | .hbm, ⟨25, _⟩ => ⟨S3x3x3x3, .f32⟩
  | .hbm, ⟨26, _⟩ => ⟨S9x9, .f32⟩
  | .hbm, ⟨27, _⟩ => ⟨S9x1x9x1, .f32⟩
  | .hbm, ⟨28, _⟩ => ⟨S1x3x1x3, .f32⟩
  | .hbm, ⟨29, _⟩ => ⟨S9x3x9x3, .f32⟩
  | .hbm, ⟨30, _⟩ => ⟨S9x3x9x3, .f32⟩
  | .hbm, ⟨31, _⟩ => ⟨S9x3x9x3, .f32⟩
  | .hbm, ⟨32, _⟩ => ⟨S27x27, .f32⟩
  | .hbm, ⟨33, _⟩ => ⟨S27x1x27x1, .f32⟩
  | .hbm, ⟨34, _⟩ => ⟨S1x3x1x3, .f32⟩
  | .hbm, ⟨35, _⟩ => ⟨S27x3x27x3, .f32⟩
  | .hbm, ⟨36, _⟩ => ⟨S27x3x27x3, .f32⟩
  | .hbm, ⟨37, _⟩ => ⟨S27x3x27x3, .f32⟩
  | .hbm, ⟨38, _⟩ => ⟨S81x81, .f32⟩
  | .hbm, ⟨39, _⟩ => ⟨S81x1x81x1, .f32⟩
  | .hbm, ⟨40, _⟩ => ⟨S1x3x1x3, .f32⟩
  | .hbm, ⟨41, _⟩ => ⟨S81x3x81x3, .f32⟩
  | .hbm, ⟨42, _⟩ => ⟨S81x3x81x3, .f32⟩
  | .hbm, ⟨43, _⟩ => ⟨S81x3x81x3, .f32⟩
  | .hbm, ⟨44, _⟩ => ⟨S243x243, .f32⟩
  | .hbm, ⟨45, _⟩ => ⟨S243x1x243x1, .f32⟩
  | .hbm, ⟨46, _⟩ => ⟨S1x3x1x3, .f32⟩
  | .hbm, ⟨47, _⟩ => ⟨S243x3x243x3, .f32⟩
  | .hbm, ⟨48, _⟩ => ⟨S243x3x243x3, .f32⟩
  | .hbm, ⟨49, _⟩ => ⟨S243x3x243x3, .f32⟩
  | .hbm, ⟨50, _⟩ => ⟨S729x729, .f32⟩
  | .hbm, ⟨51, _⟩ => ⟨S729x1x729x1, .f32⟩
  | .hbm, ⟨52, _⟩ => ⟨S1x3x1x3, .f32⟩
  | .hbm, ⟨53, _⟩ => ⟨S729x3x729x3, .f32⟩
  | .hbm, ⟨54, _⟩ => ⟨S729x3x729x3, .f32⟩
  | .hbm, ⟨55, _⟩ => ⟨S729x3x729x3, .f32⟩
  | .hbm, ⟨56, _⟩ => ⟨S2187x2187, .f32⟩
  | .hbm, ⟨57, _⟩ => ⟨S2187x1x2187x1, .f32⟩
  | .hbm, ⟨58, _⟩ => ⟨S1x3x1x3, .f32⟩
  | .hbm, ⟨59, _⟩ => ⟨S2187x3x2187x3, .f32⟩
  | .hbm, ⟨60, _⟩ => ⟨S2187x3x2187x3, .f32⟩
  | .hbm, ⟨61, _⟩ => ⟨S2187x3x2187x3, .f32⟩
  | .hbm, ⟨62, _⟩ => ⟨S6561x6561, .f32⟩
  | .hbm, ⟨63, _⟩ => ⟨S6561x1, .f32⟩
  | _, _ => ⟨S6561x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_v12 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v13 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v14 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_v15 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_v16 : Ref sig .tc := ⟨.hbm, 44, rfl⟩
abbrev main_call5_v0 : Ref sig .tc := ⟨.hbm, 45, rfl⟩
abbrev main_call5_v1 : Ref sig .tc := ⟨.hbm, 46, rfl⟩
abbrev main_call5_v2 : Ref sig .tc := ⟨.hbm, 47, rfl⟩
abbrev main_call5_v3 : Ref sig .tc := ⟨.hbm, 48, rfl⟩
abbrev main_call5_v4 : Ref sig .tc := ⟨.hbm, 49, rfl⟩
abbrev main_v17 : Ref sig .tc := ⟨.hbm, 50, rfl⟩
abbrev main_call6_v0 : Ref sig .tc := ⟨.hbm, 51, rfl⟩
abbrev main_call6_v1 : Ref sig .tc := ⟨.hbm, 52, rfl⟩
abbrev main_call6_v2 : Ref sig .tc := ⟨.hbm, 53, rfl⟩
abbrev main_call6_v3 : Ref sig .tc := ⟨.hbm, 54, rfl⟩
abbrev main_call6_v4 : Ref sig .tc := ⟨.hbm, 55, rfl⟩
abbrev main_v18 : Ref sig .tc := ⟨.hbm, 56, rfl⟩
abbrev main_call7_v0 : Ref sig .tc := ⟨.hbm, 57, rfl⟩
abbrev main_call7_v1 : Ref sig .tc := ⟨.hbm, 58, rfl⟩
abbrev main_call7_v2 : Ref sig .tc := ⟨.hbm, 59, rfl⟩
abbrev main_call7_v3 : Ref sig .tc := ⟨.hbm, 60, rfl⟩
abbrev main_call7_v4 : Ref sig .tc := ⟨.hbm, 61, rfl⟩
abbrev main_v19 : Ref sig .tc := ⟨.hbm, 62, rfl⟩
abbrev main_v20 : Ref sig .tc := ⟨.hbm, 63, rfl⟩

abbrev nD : Nat := 1
abbrev τ : Topo := Topo.v7x

variable {F : FTy → Type} [FloatOps F]

class Facts₀ : Prop where
  bcast_S_S3x3 : S_.BroadcastsInDim S3x3 (![] : Fin 0 → Fin S3x3.rank)
  bcast_S_S1x1 : S_.BroadcastsInDim S1x1 (![] : Fin 0 → Fin S1x1.rank)
  bcast_S1x1_S1x1x1x1_0_2 : S1x1.BroadcastsInDim S1x1x1x1 (![0, 2] : Fin 2 → Fin S1x1x1x1.rank)
  bcast_S3x3_S1x3x1x3_1_3 : S3x3.BroadcastsInDim S1x3x1x3 (![1, 3] : Fin 2 → Fin S1x3x1x3.rank)
  bcast_S1x1x1x1_S1x3x1x3_0_1_2_3 : S1x1x1x1.BroadcastsInDim S1x3x1x3 (![0, 1, 2, 3] : Fin 4 → Fin S1x3x1x3.rank)
  shapeCasts_S1x3x1x3_S3x3 : S1x3x1x3.ShapeCasts S3x3
  bcast_S3x3_S3x1x3x1_0_2 : S3x3.BroadcastsInDim S3x1x3x1 (![0, 2] : Fin 2 → Fin S3x1x3x1.rank)
  bcast_S3x1x3x1_S3x3x3x3_0_1_2_3 : S3x1x3x1.BroadcastsInDim S3x3x3x3 (![0, 1, 2, 3] : Fin 4 → Fin S3x3x3x3.rank)
  bcast_S1x3x1x3_S3x3x3x3_0_1_2_3 : S1x3x1x3.BroadcastsInDim S3x3x3x3 (![0, 1, 2, 3] : Fin 4 → Fin S3x3x3x3.rank)
  shapeCasts_S3x3x3x3_S9x9 : S3x3x3x3.ShapeCasts S9x9
  bcast_S9x9_S9x1x9x1_0_2 : S9x9.BroadcastsInDim S9x1x9x1 (![0, 2] : Fin 2 → Fin S9x1x9x1.rank)
  bcast_S9x1x9x1_S9x3x9x3_0_1_2_3 : S9x1x9x1.BroadcastsInDim S9x3x9x3 (![0, 1, 2, 3] : Fin 4 → Fin S9x3x9x3.rank)
  bcast_S1x3x1x3_S9x3x9x3_0_1_2_3 : S1x3x1x3.BroadcastsInDim S9x3x9x3 (![0, 1, 2, 3] : Fin 4 → Fin S9x3x9x3.rank)
  shapeCasts_S9x3x9x3_S27x27 : S9x3x9x3.ShapeCasts S27x27
  bcast_S27x27_S27x1x27x1_0_2 : S27x27.BroadcastsInDim S27x1x27x1 (![0, 2] : Fin 2 → Fin S27x1x27x1.rank)
  bcast_S27x1x27x1_S27x3x27x3_0_1_2_3 : S27x1x27x1.BroadcastsInDim S27x3x27x3 (![0, 1, 2, 3] : Fin 4 → Fin S27x3x27x3.rank)
  bcast_S1x3x1x3_S27x3x27x3_0_1_2_3 : S1x3x1x3.BroadcastsInDim S27x3x27x3 (![0, 1, 2, 3] : Fin 4 → Fin S27x3x27x3.rank)
  shapeCasts_S27x3x27x3_S81x81 : S27x3x27x3.ShapeCasts S81x81
  bcast_S81x81_S81x1x81x1_0_2 : S81x81.BroadcastsInDim S81x1x81x1 (![0, 2] : Fin 2 → Fin S81x1x81x1.rank)
  bcast_S81x1x81x1_S81x3x81x3_0_1_2_3 : S81x1x81x1.BroadcastsInDim S81x3x81x3 (![0, 1, 2, 3] : Fin 4 → Fin S81x3x81x3.rank)
  bcast_S1x3x1x3_S81x3x81x3_0_1_2_3 : S1x3x1x3.BroadcastsInDim S81x3x81x3 (![0, 1, 2, 3] : Fin 4 → Fin S81x3x81x3.rank)
  shapeCasts_S81x3x81x3_S243x243 : S81x3x81x3.ShapeCasts S243x243
  bcast_S243x243_S243x1x243x1_0_2 : S243x243.BroadcastsInDim S243x1x243x1 (![0, 2] : Fin 2 → Fin S243x1x243x1.rank)
  bcast_S243x1x243x1_S243x3x243x3_0_1_2_3 : S243x1x243x1.BroadcastsInDim S243x3x243x3 (![0, 1, 2, 3] : Fin 4 → Fin S243x3x243x3.rank)
  bcast_S1x3x1x3_S243x3x243x3_0_1_2_3 : S1x3x1x3.BroadcastsInDim S243x3x243x3 (![0, 1, 2, 3] : Fin 4 → Fin S243x3x243x3.rank)
  shapeCasts_S243x3x243x3_S729x729 : S243x3x243x3.ShapeCasts S729x729
  bcast_S729x729_S729x1x729x1_0_2 : S729x729.BroadcastsInDim S729x1x729x1 (![0, 2] : Fin 2 → Fin S729x1x729x1.rank)
  bcast_S729x1x729x1_S729x3x729x3_0_1_2_3 : S729x1x729x1.BroadcastsInDim S729x3x729x3 (![0, 1, 2, 3] : Fin 4 → Fin S729x3x729x3.rank)
  bcast_S1x3x1x3_S729x3x729x3_0_1_2_3 : S1x3x1x3.BroadcastsInDim S729x3x729x3 (![0, 1, 2, 3] : Fin 4 → Fin S729x3x729x3.rank)
  shapeCasts_S729x3x729x3_S2187x2187 : S729x3x729x3.ShapeCasts S2187x2187
  bcast_S2187x2187_S2187x1x2187x1_0_2 : S2187x2187.BroadcastsInDim S2187x1x2187x1 (![0, 2] : Fin 2 → Fin S2187x1x2187x1.rank)
  bcast_S2187x1x2187x1_S2187x3x2187x3_0_1_2_3 : S2187x1x2187x1.BroadcastsInDim S2187x3x2187x3 (![0, 1, 2, 3] : Fin 4 → Fin S2187x3x2187x3.rank)
  bcast_S1x3x1x3_S2187x3x2187x3_0_1_2_3 : S1x3x1x3.BroadcastsInDim S2187x3x2187x3 (![0, 1, 2, 3] : Fin 4 → Fin S2187x3x2187x3.rank)
  shapeCasts_S2187x3x2187x3_S6561x6561 : S2187x3x2187x3.ShapeCasts S6561x6561
  dot_S6561x6561_S6561x1_S6561x1_1_0_0_1_n_n_wf : DotDims.WF S6561x6561 S6561x1 S6561x1 [1] [0] [0] [1] [] []

variable [Facts₀]

def dot_S6561x6561_S6561x1_S6561x1_1_0_0_1_n_n : DotDims S6561x6561 S6561x1 S6561x1 where
  lhsContracting := [1]
  rhsContracting := [0]
  lhsNonContracting := [0]
  rhsNonContracting := [1]
  lhsBatch := []
  rhsBatch := []
  wf := dot_S6561x6561_S6561x1_S6561x1_1_0_0_1_n_n_wf

class Facts : Prop extends Facts₀ where

variable [Facts]
-- ==== Proof.Spec.lean ====
/-
  The result both programs compute, as ONE function of the two argument arrays.

  A state vector `x` of 3^8 = 6561 entries is read as a 27 × 3 × 81 block: position `r = a·243 + i·81 + b`
  (`a < 27`, `i < 3`, `b < 81`) carries the base-3 digit `i` of site 3. A 3 × 3 matrix `M` acts on that digit alone:

      out[a·243 + j·81 + b] = (M[j,0] · x[a·243 + 0·81 + b] + M[j,1] · x[a·243 + 1·81 + b]) + M[j,2] · x[a·243 + 2·81 + b].

  Positions are natural numbers throughout; an array is read at a position modulo its extent, so that no bound
  has to be carried (every position that occurs is in range anyway).
-/
import Idealize.ShloMosaic.Lib.ValueIdx
import Idealize.ShloMosaic.PureOps.Ideal

noncomputable section

namespace Cert.SiteGate

open Idealize.ShloMosaic Idealize.ShloMosaic.ValueIdx

/-- Entry `(p, q)` of a 3 × 3 array, the two positions read modulo 3. -/
def ent3 (M : (⟨2, ![3, 3]⟩ : Shape).Idx → EReal) (p q : ℕ) : EReal :=
  M (ix2 (⟨p % 3, Nat.mod_lt _ (by norm_num)⟩ : Fin 3) (⟨q % 3, Nat.mod_lt _ (by norm_num)⟩ : Fin 3))

/-- Entry `r` of a column of 6561 entries, the position read modulo 6561. -/
def colAt (x : (⟨2, ![6561, 1]⟩ : Shape).Idx → EReal) (r : ℕ) : EReal :=
  x (ix2 (⟨r % 6561, Nat.mod_lt _ (by norm_num)⟩ : Fin 6561) (⟨0, by norm_num⟩ : Fin 1))

/-- The three-term sum at position `r`: row `(r / 81) % 3` of `M` against the three entries of `x` that differ from
    `r` in the digit of site 3 only, added from the left. -/
def gateAt (x : (⟨2, ![6561, 1]⟩ : Shape).Idx → EReal) (M : (⟨2, ![3, 3]⟩ : Shape).Idx → EReal) (r : ℕ) : EReal :=
  (ent3 M (r / 81) 0 * colAt x (r / 243 * 243 + 0 * 81 + r % 81)
    + ent3 M (r / 81) 1 * colAt x (r / 243 * 243 + 1 * 81 + r % 81))
    + ent3 M (r / 81) 2 * colAt x (r / 243 * 243 + 2 * 81 + r % 81)

/-- The result array: the three-term sum at every row. -/
def G (x : (⟨2, ![6561, 1]⟩ : Shape).Idx → EReal) (M : (⟨2, ![3, 3]⟩ : Shape).Idx → EReal) :
    (⟨2, ![6561, 1]⟩ : Shape).Idx → EReal :=
  fun i => gateAt x M (i 0).val

end Cert.SiteGate

end
-- ==== Proof.KronAlgebra.lean ====
/-
  The algebra behind the reference's matrix, on the extended reals.

  The reference builds `U = I₃ ⊗ I₃ ⊗ I₃ ⊗ M ⊗ I₃ ⊗ I₃ ⊗ I₃ ⊗ I₃` one Kronecker factor at a time:
  `(A ⊗ B)[R, S] = A[R / 3, S / 3] · B[R % 3, S % 3]` for a 3 × 3 factor `B`. Two closed forms are carried
  through the steps:
   * before the factor `M`, the matrix is an identity: entry `δ R S` (1 on the diagonal, 0 off it), and
     `δ (R/3) (S/3) · δ (R%3) (S%3) = δ R S`;
   * from the factor `M` on, with `d` the size of the identity block to its right, the entry at `(R, S)` is
     `M[(R / d) % 3, (S / d) % 3]` when `R` and `S` agree in every other base-3 digit
     (`R / (3 d) = S / (3 d)` and `R % d = S % d`), and 0 otherwise; one more identity factor turns `d` into `3 d`.
  Only `0 · y = 0`, `1 · y = y` and the commutative-monoid laws of `+` are used, so nothing here needs a
  finite operand. Last, a row of the final matrix against a column: of the 6561 products all but three carry
  the factor 0, and the three that remain are the spec's three-term sum.
-/
import proofs.«148769_j549755814197_2_alg».proof.Proof.Spec

noncomputable section

namespace Cert.SiteGate

open Idealize.ShloMosaic Idealize.ShloMosaic.ValueIdx

/-- An identity matrix's entry. -/
def δ (p q : ℕ) : EReal := if p = q then 1 else 0

theorem δ_self (p : ℕ) : δ p p = 1 := if_pos rfl

/-- One Kronecker step of identities: `I ⊗ I₃` is the identity. -/
theorem δ_kron (R S : ℕ) : δ (R / 3) (S / 3) * δ (R % 3) (S % 3) = δ R S := by
  unfold δ
  by_cases h : R = S
  · subst h; rw [if_pos rfl, if_pos rfl, if_pos rfl, one_mul]
  · rw [if_neg h]
    by_cases h1 : R / 3 = S / 3
    · rw [if_neg (by omega : ¬ R % 3 = S % 3), mul_zero]
    · rw [if_neg h1, zero_mul]

/-- A 3 × 3 entry depends on its positions modulo 3 only. -/
theorem ent3_congr (M : (⟨2, ![3, 3]⟩ : Shape).Idx → EReal) {p p' q q' : ℕ} (hp : p % 3 = p' % 3) (hq : q % 3 = q' % 3) :
    ent3 M p q = ent3 M p' q' := by
  unfold ent3
  have e1 : (⟨p % 3, Nat.mod_lt _ (by norm_num)⟩ : Fin 3) = ⟨p' % 3, Nat.mod_lt _ (by norm_num)⟩ := Fin.ext hp
  have e2 : (⟨q % 3, Nat.mod_lt _ (by norm_num)⟩ : Fin 3) = ⟨q' % 3, Nat.mod_lt _ (by norm_num)⟩ := Fin.ext hq
  rw [e1, e2]

/-- Entry `(R, S)` of `I ⊗ M ⊗ I_d`: the digits other than site's agree, and then `M` at the site's two digits. -/
def siteEntry (M : (⟨2, ![3, 3]⟩ : Shape).Idx → EReal) (d R S : ℕ) : EReal :=
  if R / (3 * d) = S / (3 * d) ∧ R % d = S % d then ent3 M (R / d) (S / d) else 0

/-- The step that brings `M` in: `I ⊗ M`. -/
theorem siteEntry_first (M : (⟨2, ![3, 3]⟩ : Shape).Idx → EReal) (R S : ℕ) :
    δ (R / 3) (S / 3) * ent3 M (R % 3) (S % 3) = siteEntry M 1 R S := by
  unfold δ siteEntry
  by_cases h : R / 3 = S / 3
  · rw [if_pos h, one_mul, if_pos ⟨by omega, by omega⟩]
    exact ent3_congr M (by omega) (by omega)
  · rw [if_neg h, zero_mul, if_neg (fun hh => h (by omega))]

/-- One more identity factor on the right: the identity block grows from `d` to `d' = 3 d`. The three facts about
    base-3 digits that this uses are hypotheses: they hold for each literal pair `d`, `d'` the steps meet. -/
theorem siteEntry_step (M : (⟨2, ![3, 3]⟩ : Shape).Idx → EReal) (d d' R S : ℕ)
    (hq : (R / 3 / (3 * d) = S / 3 / (3 * d) ∧ R / 3 % d = S / 3 % d) ∧ R % 3 = S % 3 ↔ R / (3 * d') = S / (3 * d') ∧ R % d' = S % d')
    (hR : R / 3 / d % 3 = R / d' % 3) (hS : S / 3 / d % 3 = S / d' % 3) :
    siteEntry M d (R / 3) (S / 3) * δ (R % 3) (S % 3) = siteEntry M d' R S := by
  unfold δ siteEntry
  by_cases h1 : R / 3 / (3 * d) = S / 3 / (3 * d) ∧ R / 3 % d = S / 3 % d
  · by_cases h2 : R % 3 = S % 3
    · rw [if_pos h1, if_pos h2, mul_one, if_pos (hq.mp ⟨h1, h2⟩)]
      exact ent3_congr M hR hS
    · rw [if_neg h2, mul_zero, if_neg (fun hh => h2 (hq.mpr hh).2)]
  · rw [if_neg h1, zero_mul, if_neg (fun hh => h1 (hq.mpr hh).1)]

/-- Of a sum over the 6561 positions, the terms at positions `k` with `k / 243 = a` and `k % 81 = b` are the
    three at `a·243 + t·81 + b`, `t < 3`. -/
theorem sum_site (a b : ℕ) (ha : a < 27) (hb : b < 81) (f : ℕ → EReal) :
    ∑ k : Fin 6561, (if a = k.val / 243 ∧ b = k.val % 81 then f k.val else 0)
      = (f (a * 243 + 0 * 81 + b) + f (a * 243 + 1 * 81 + b)) + f (a * 243 + 2 * 81 + b) := by
  have key : ∀ k : Fin 6561, (if a = k.val / 243 ∧ b = k.val % 81 then f k.val else 0)
      = ∑ t : Fin 3, if k = (⟨a * 243 + t.val * 81 + b, by have := t.isLt; omega⟩ : Fin 6561) then f (a * 243 + t.val * 81 + b) else 0 := by
    intro k
    rw [Fin.sum_univ_three]
    simp only [Fin.ext_iff, Fin.val_zero, Fin.val_one, Fin.val_two]
    by_cases h : a = k.val / 243 ∧ b = k.val % 81
    · rw [if_pos h]
      have h3 : k.val / 81 % 3 = 0 ∨ k.val / 81 % 3 = 1 ∨ k.val / 81 % 3 = 2 := by omega
      rcases h3 with h0 | h0 | h0
      · have e : k.val = a * 243 + 0 * 81 + b := by omega
        rw [if_pos e, if_neg (by omega), if_neg (by omega), add_zero, add_zero, ← e]
      · have e : k.val = a * 243 + 1 * 81 + b := by omega
        rw [if_neg (by omega), if_pos e, if_neg (by omega), zero_add, add_zero, ← e]
      · have e : k.val = a * 243 + 2 * 81 + b := by omega
        rw [if_neg (by omega), if_neg (by omega), if_pos e, zero_add, zero_add, ← e]
    · rw [if_neg h, if_neg (by omega), if_neg (by omega), if_neg (by omega), add_zero, add_zero]
  rw [Finset.sum_congr rfl (fun k _ => key k), Finset.sum_comm, Fin.sum_univ_three]
  simp only [Finset.sum_ite_eq', Finset.mem_univ, if_true, Fin.val_zero, Fin.val_one, Fin.val_two]

/-- A row of `I₂₇ ⊗ M ⊗ I₈₁` against a column is the three-term sum. -/
theorem row_sum (x : (⟨2, ![6561, 1]⟩ : Shape).Idx → EReal) (M : (⟨2, ![3, 3]⟩ : Shape).Idx → EReal) (r : ℕ) (hr : r < 6561) :
    ∑ k : Fin 6561, siteEntry M 81 r k.val * colAt x k.val = gateAt x M r := by
  have e : ∀ k : Fin 6561, siteEntry M 81 r k.val * colAt x k.val
      = if r / 243 = k.val / 243 ∧ r % 81 = k.val % 81 then (fun k : ℕ => ent3 M (r / 81) (k / 81) * colAt x k) k.val else 0 := by
    intro k
    unfold siteEntry
    by_cases h : r / (3 * 81) = k.val / (3 * 81) ∧ r % 81 = k.val % 81
    · rw [if_pos h, if_pos ⟨by omega, h.2⟩]
    · rw [if_neg h, zero_mul, if_neg (fun hh => h ⟨by omega, hh.2⟩)]
  rw [Finset.sum_congr rfl (fun k _ => e k)]
  refine (sum_site (r / 243) (r % 81) (by omega) (by omega) (fun k : ℕ => ent3 M (r / 81) (k / 81) * colAt x k)).trans ?_
  unfold gateAt
  rw [ent3_congr M (p := r / 81) (p' := r / 81) (q := (r / 243 * 243 + 0 * 81 + r % 81) / 81) (q' := 0) rfl (by omega),
    ent3_congr M (p := r / 81) (p' := r / 81) (q := (r / 243 * 243 + 1 * 81 + r % 81) / 81) (q' := 1) rfl (by omega),
    ent3_congr M (p := r / 81) (p' := r / 81) (q := (r / 243 * 243 + 2 * 81 + r % 81) / 81) (q' := 2) rfl (by omega)]

end Cert.SiteGate

end
-- ==== Proof.RefEntries.lean ====
/-
  The reference's matrix, entry by entry.

  The reference first writes the 3 × 3 identity (a comparison of a row counter with a column counter, converted to a
  number) and the 1 × 1 identity, then takes eight Kronecker products `A ⊗ B` with a 3 × 3 right factor `B`: the
  product is laid out as a four-axis array `(r, p, s, q) ↦ A[r, s] · B[p, q]` and re-read as a matrix with row
  `3 r + p` and column `3 s + q`, so its entry at `(R, S)` is `A[R / 3, S / 3] · B[R % 3, S % 3]`. The first three
  products have identity factors only and give the 27 × 27 identity; the fourth has the argument `M` on the right;
  the last four put four more identity factors to its right. The entries are the closed forms of the algebra module:
  `δ` up to the third product and `siteEntry M d` with `d = 1, 3, 9, 27, 81` from the fourth on. The result is the
  last matrix against the argument column, a sum over 6561 positions, which is the three-term sum of the spec.
-/
import proofs.«148769_j549755814197_2_alg».proof.Proof.Gen.ReferenceIdeal.Read
import proofs.«148769_j549755814197_2_alg».proof.Proof.KronAlgebra

noncomputable section

namespace Cert.SiteGate

open Idealize.ShloMosaic Idealize.ShloMosaic.ValueIdx Cert.ReferenceIdeal Cert.ReferenceIdeal.Read

/-- The comparison of the two counters, as a bit: 1 exactly on the diagonal. -/
theorem counters_eq (p q : Fin 3) :
    IntOp.cmpi .eq (IntOp.addi (BitVec.ofNat 32 p.val) 0#32) (BitVec.ofNat 32 q.val) = if p.val = q.val then 1#1 else 0#1 := by
  revert p q; decide

/-- The 3 × 3 identity the reference writes. -/
theorem eye3 (p q : Fin 3) : val_main_v5 (F := Ideal) (ix2 p q) = δ p.val q.val := by
  rw [val_main_v5_apply, val_main_v4_apply, val_main_v3_apply, val_main_v0_apply, val_main_v2_apply, val_main_c_apply,
    val_main_v1_apply]
  show FloatOps.uitofp (F := Ideal) .f32 (IntOp.cmpi .eq (IntOp.addi (BitVec.ofNat 32 p.val) 0#32) (BitVec.ofNat 32 q.val)) = _
  rw [counters_eq p q]
  unfold δ
  by_cases h : p.val = q.val
  · rw [if_pos h, if_pos h]; show (((1#1 : BitVec 1).toNat : ℝ) : EReal) = 1; norm_num
  · rw [if_neg h, if_neg h]; show (((0#1 : BitVec 1).toNat : ℝ) : EReal) = 0; norm_num

/-- The 1 × 1 identity the reference writes. -/
theorem eye1 (j : S1x1.Idx) : val_main_v11 (F := Ideal) j = 1 := by
  obtain ⟨a, b, rfl⟩ : ∃ (a : Fin 1) (b : Fin 1), j = ix2 a b := ⟨j 0, j 1, eq_ix2 j⟩
  rw [val_main_v11_apply, val_main_v10_apply, val_main_v9_apply, val_main_v6_apply, val_main_v8_apply, val_main_c_0_apply,
    val_main_v7_apply]
  have ha : a = 0 := Subsingleton.elim _ _
  have hb : b = 0 := Subsingleton.elim _ _
  subst ha hb
  show (((IntOp.cmpi .eq (IntOp.addi (BitVec.ofNat 32 0) 0#32) (BitVec.ofNat 32 0)).toNat : ℝ) : EReal) = 1
  rw [show IntOp.cmpi .eq (IntOp.addi (BitVec.ofNat 32 0) 0#32) (BitVec.ofNat 32 0) = 1#1 by decide]
  norm_num

/-- First product, `I₁ ⊗ I₃`. -/
theorem kron0 (R S : Fin 3) : val_main_v12 (F := Ideal) (ix2 R S) = δ R.val S.val := by
  have hR := R.isLt; have hS := S.isLt
  rw [val_main_v12_apply, val_main_call0_v3_apply, val_main_call0_v2_apply, val_main_call0_v0_apply, val_main_call0_v1_apply,
    eye1]
  have e : idx_main_call0_v1 (idx_main_v12 (ix2 R S)) = ix2 R S := funext fun a => Fin.ext (by
    match a with
    | ⟨0, _⟩ => show (R.val * 3 + S.val) / 3 % 3 = R.val; omega
    | ⟨1, _⟩ => show (R.val * 3 + S.val) % 3 = S.val; omega)
  rw [e, eye3]
  exact one_mul _

/-- Second product, `I₃ ⊗ I₃`: still an identity. -/
theorem kron1 (R S : Fin 9) : val_main_v13 (F := Ideal) (ix2 R S) = δ R.val S.val := by
  have hR := R.isLt; have hS := S.isLt
  rw [val_main_v13_apply, val_main_call1_v4_apply, val_main_call1_v2_apply, val_main_call1_v0_apply,
    val_main_call1_v3_apply, val_main_call1_v1_apply]
  have e1 : idx_main_call1_v0 (idx_main_call1_v2 (idx_main_v13 (ix2 R S)))
      = ix2 (⟨R.val / 3, by omega⟩ : Fin 3) (⟨S.val / 3, by omega⟩ : Fin 3) := funext fun a => Fin.ext (by
    match a with
    | ⟨0, _⟩ => show (R.val * 9 + S.val) / 27 = R.val / 3; omega
    | ⟨1, _⟩ => show (R.val * 9 + S.val) / 3 % 3 = S.val / 3; omega)
  have e2 : idx_main_call1_v1 (idx_main_call1_v3 (idx_main_v13 (ix2 R S)))
      = ix2 (⟨R.val % 3, by omega⟩ : Fin 3) (⟨S.val % 3, by omega⟩ : Fin 3) := funext fun a => Fin.ext (by
    match a with
    | ⟨0, _⟩ => show (R.val * 9 + S.val) / 9 % 3 = R.val % 3; omega
    | ⟨1, _⟩ => show (R.val * 9 + S.val) % 3 = S.val % 3; omega)
  rw [e1, e2, kron0, eye3]
  exact δ_kron R.val S.val

/-- Third product, `I₉ ⊗ I₃`: still an identity. -/
theorem kron2 (R S : Fin 27) : val_main_v14 (F := Ideal) (ix2 R S) = δ R.val S.val := by
  have hR := R.isLt; have hS := S.isLt
  rw [val_main_v14_apply, val_main_call2_v4_apply, val_main_call2_v2_apply, val_main_call2_v0_apply,
    val_main_call2_v3_apply, val_main_call2_v1_apply]
  have e1 : idx_main_call2_v0 (idx_main_call2_v2 (idx_main_v14 (ix2 R S)))
      = ix2 (⟨R.val / 3, by omega⟩ : Fin 9) (⟨S.val / 3, by omega⟩ : Fin 9) := funext fun a => Fin.ext (by
    match a with
    | ⟨0, _⟩ => show (R.val * 27 + S.val) / 81 = R.val / 3; omega
    | ⟨1, _⟩ => show (R.val * 27 + S.val) / 3 % 9 = S.val / 3; omega)
  have e2 : idx_main_call2_v1 (idx_main_call2_v3 (idx_main_v14 (ix2 R S)))
      = ix2 (⟨R.val % 3, by omega⟩ : Fin 3) (⟨S.val % 3, by omega⟩ : Fin 3) := funext fun a => Fin.ext (by
    match a with
    | ⟨0, _⟩ => show (R.val * 27 + S.val) / 27 % 3 = R.val % 3; omega
    | ⟨1, _⟩ => show (R.val * 27 + S.val) % 3 = S.val % 3; omega)
  rw [e1, e2, kron1, eye3]
  exact δ_kron R.val S.val

/-- An entry of the 3 × 3 argument at in-range positions, in the spec's reading. -/
theorem ent3_of_fin (M : (⟨S3x3, .f32⟩ : BufTy).Contents (Elt Ideal)) (p q : Fin 3) : M (ix2 p q) = ent3 M p.val q.val := by
  have hp := p.isLt; have hq := q.isLt
  unfold ent3
  exact congrArg M (funext fun a => Fin.ext (by
    match a with
    | ⟨0, _⟩ => show p.val = p.val % 3; omega
    | ⟨1, _⟩ => show q.val = q.val % 3; omega))

/-- Fourth product, `I₂₇ ⊗ M`: the argument comes in. -/
theorem kron3 (x1 : (⟨S3x3, .f32⟩ : BufTy).Contents (Elt Ideal)) (R S : Fin 81) :
    val_main_v15 (F := Ideal) x1 (ix2 R S) = siteEntry x1 1 R.val S.val := by
  have hR := R.isLt; have hS := S.isLt
  rw [val_main_v15_apply, val_main_call3_v4_apply, val_main_call3_v2_apply, val_main_call3_v0_apply,
    val_main_call3_v3_apply, val_main_call3_v1_apply]
  have e1 : idx_main_call3_v0 (idx_main_call3_v2 (idx_main_v15 (ix2 R S)))
      = ix2 (⟨R.val / 3, by omega⟩ : Fin 27) (⟨S.val / 3, by omega⟩ : Fin 27) := funext fun a => Fin.ext (by
    match a with
    | ⟨0, _⟩ => show (R.val * 81 + S.val) / 243 = R.val / 3; omega
    | ⟨1, _⟩ => show (R.val * 81 + S.val) / 3 % 27 = S.val / 3; omega)
  have e2 : idx_main_call3_v1 (idx_main_call3_v3 (idx_main_v15 (ix2 R S)))
      = ix2 (⟨R.val % 3, by omega⟩ : Fin 3) (⟨S.val % 3, by omega⟩ : Fin 3) := funext fun a => Fin.ext (by
    match a with
    | ⟨0, _⟩ => show (R.val * 81 + S.val) / 81 % 3 = R.val % 3; omega
    | ⟨1, _⟩ => show (R.val * 81 + S.val) % 3 = S.val % 3; omega)
  rw [e1, e2, kron2, ent3_of_fin x1]
  exact siteEntry_first x1 R.val S.val

/-- Fifth product: one more identity factor to the right of `M`, the identity block grows from 1 to 3. -/
theorem kron4 (x1 : (⟨S3x3, .f32⟩ : BufTy).Contents (Elt Ideal)) (R S : Fin 243) :
    val_main_v16 (F := Ideal) x1 (ix2 R S) = siteEntry x1 3 R.val S.val := by
  have hR := R.isLt; have hS := S.isLt
  rw [val_main_v16_apply, val_main_call4_v4_apply, val_main_call4_v2_apply, val_main_call4_v0_apply,
    val_main_call4_v3_apply, val_main_call4_v1_apply]
  have e1 : idx_main_call4_v0 (idx_main_call4_v2 (idx_main_v16 (ix2 R S)))
      = ix2 (⟨R.val / 3, by omega⟩ : Fin 81) (⟨S.val / 3, by omega⟩ : Fin 81) := funext fun a => Fin.ext (by
    match a with
    | ⟨0, _⟩ => show (R.val * 243 + S.val) / 729 = R.val / 3; omega
    | ⟨1, _⟩ => show (R.val * 243 + S.val) / 3 % 81 = S.val / 3; omega)
  have e2 : idx_main_call4_v1 (idx_main_call4_v3 (idx_main_v16 (ix2 R S)))
      = ix2 (⟨R.val % 3, by omega⟩ : Fin 3) (⟨S.val % 3, by omega⟩ : Fin 3) := funext fun a => Fin.ext (by
    match a with
    | ⟨0, _⟩ => show (R.val * 243 + S.val) / 243 % 3 = R.val % 3; omega
    | ⟨1, _⟩ => show (R.val * 243 + S.val) % 3 = S.val % 3; omega)
  rw [e1, e2, kron3, eye3]
  exact siteEntry_step x1 1 3 R.val S.val (by omega) (by omega) (by omega)

/-- Sixth product: one more identity factor to the right of `M`, the identity block grows from 3 to 9. -/
theorem kron5 (x1 : (⟨S3x3, .f32⟩ : BufTy).Contents (Elt Ideal)) (R S : Fin 729) :
    val_main_v17 (F := Ideal) x1 (ix2 R S) = siteEntry x1 9 R.val S.val := by
  have hR := R.isLt; have hS := S.isLt
  rw [val_main_v17_apply, val_main_call5_v4_apply, val_main_call5_v2_apply, val_main_call5_v0_apply,
    val_main_call5_v3_apply, val_main_call5_v1_apply]
  have e1 : idx_main_call5_v0 (idx_main_call5_v2 (idx_main_v17 (ix2 R S)))
      = ix2 (⟨R.val / 3, by omega⟩ : Fin 243) (⟨S.val / 3, by omega⟩ : Fin 243) := funext fun a => Fin.ext (by
    match a with
    | ⟨0, _⟩ => show (R.val * 729 + S.val) / 2187 = R.val / 3; omega
    | ⟨1, _⟩ => show (R.val * 729 + S.val) / 3 % 243 = S.val / 3; omega)
  have e2 : idx_main_call5_v1 (idx_main_call5_v3 (idx_main_v17 (ix2 R S)))
      = ix2 (⟨R.val % 3, by omega⟩ : Fin 3) (⟨S.val % 3, by omega⟩ : Fin 3) := funext fun a => Fin.ext (by
    match a with
    | ⟨0, _⟩ => show (R.val * 729 + S.val) / 729 % 3 = R.val % 3; omega
    | ⟨1, _⟩ => show (R.val * 729 + S.val) % 3 = S.val % 3; omega)
  rw [e1, e2, kron4, eye3]
  exact siteEntry_step x1 3 9 R.val S.val (by omega) (by omega) (by omega)

/-- Seventh product: one more identity factor to the right of `M`, the identity block grows from 9 to 27. -/
theorem kron6 (x1 : (⟨S3x3, .f32⟩ : BufTy).Contents (Elt Ideal)) (R S : Fin 2187) :
    val_main_v18 (F := Ideal) x1 (ix2 R S) = siteEntry x1 27 R.val S.val := by
  have hR := R.isLt; have hS := S.isLt
  rw [val_main_v18_apply, val_main_call6_v4_apply, val_main_call6_v2_apply, val_main_call6_v0_apply,
    val_main_call6_v3_apply, val_main_call6_v1_apply]
  have e1 : idx_main_call6_v0 (idx_main_call6_v2 (idx_main_v18 (ix2 R S)))
      = ix2 (⟨R.val / 3, by omega⟩ : Fin 729) (⟨S.val / 3, by omega⟩ : Fin 729) := funext fun a => Fin.ext (by
    match a with
    | ⟨0, _⟩ => show (R.val * 2187 + S.val) / 6561 = R.val / 3; omega
    | ⟨1, _⟩ => show (R.val * 2187 + S.val) / 3 % 729 = S.val / 3; omega)
  have e2 : idx_main_call6_v1 (idx_main_call6_v3 (idx_main_v18 (ix2 R S)))
      = ix2 (⟨R.val % 3, by omega⟩ : Fin 3) (⟨S.val % 3, by omega⟩ : Fin 3) := funext fun a => Fin.ext (by
    match a with
    | ⟨0, _⟩ => show (R.val * 2187 + S.val) / 2187 % 3 = R.val % 3; omega
    | ⟨1, _⟩ => show (R.val * 2187 + S.val) % 3 = S.val % 3; omega)
  rw [e1, e2, kron5, eye3]
  exact siteEntry_step x1 9 27 R.val S.val (by omega) (by omega) (by omega)

/-- Eighth product: one more identity factor to the right of `M`, the identity block grows from 27 to 81. -/
theorem kron7 (x1 : (⟨S3x3, .f32⟩ : BufTy).Contents (Elt Ideal)) (R S : Fin 6561) :
    val_main_v19 (F := Ideal) x1 (ix2 R S) = siteEntry x1 81 R.val S.val := by
  have hR := R.isLt; have hS := S.isLt
  rw [val_main_v19_apply, val_main_call7_v4_apply, val_main_call7_v2_apply, val_main_call7_v0_apply,
    val_main_call7_v3_apply, val_main_call7_v1_apply]
  have e1 : idx_main_call7_v0 (idx_main_call7_v2 (idx_main_v19 (ix2 R S)))
      = ix2 (⟨R.val / 3, by omega⟩ : Fin 2187) (⟨S.val / 3, by omega⟩ : Fin 2187) := funext fun a => Fin.ext (by
    match a with
    | ⟨0, _⟩ => show (R.val * 6561 + S.val) / 19683 = R.val / 3; omega
    | ⟨1, _⟩ => show (R.val * 6561 + S.val) / 3 % 2187 = S.val / 3; omega)
  have e2 : idx_main_call7_v1 (idx_main_call7_v3 (idx_main_v19 (ix2 R S)))
      = ix2 (⟨R.val % 3, by omega⟩ : Fin 3) (⟨S.val % 3, by omega⟩ : Fin 3) := funext fun a => Fin.ext (by
    match a with
    | ⟨0, _⟩ => show (R.val * 6561 + S.val) / 6561 % 3 = R.val % 3; omega
    | ⟨1, _⟩ => show (R.val * 6561 + S.val) % 3 = S.val % 3; omega)
  rw [e1, e2, kron6, eye3]
  exact siteEntry_step x1 27 81 R.val S.val (by omega) (by omega) (by omega)

/-- The reference's result is the spec's array: a row of the last matrix against the argument column. -/
theorem reference_eq (x0 : (⟨S6561x1, .f32⟩ : BufTy).Contents (Elt Ideal)) (x1 : (⟨S3x3, .f32⟩ : BufTy).Contents (Elt Ideal)) :
    val_main_v20 (F := Ideal) x0 x1 = G x0 x1 := by
  funext i
  obtain ⟨r, z, rfl⟩ : ∃ (r : Fin 6561) (z : Fin 1), i = ix2 r z := ⟨i 0, i 1, eq_ix2 i⟩
  rw [val_main_v20_apply]
  have e : ∀ k : Fin 6561, val_main_v19 (F := Ideal) x1 (lidx_main_v20 (ix2 r z) k) * x0 (ridx_main_v20 (ix2 r z) k)
      = siteEntry x1 81 r.val k.val * colAt x0 k.val := by
    intro k
    have hk := k.isLt; have hz := z.isLt
    have el : lidx_main_v20 (ix2 r z) k = ix2 r k := funext fun a => Fin.ext (by
      match a with
      | ⟨0, _⟩ => rfl
      | ⟨1, _⟩ => rfl)
    have er : x0 (ridx_main_v20 (ix2 r z) k) = colAt x0 k.val := congrArg x0 (funext fun a => Fin.ext (by
      match a with
      | ⟨0, _⟩ => show k.val = k.val % 6561; omega
      | ⟨1, _⟩ => show z.val = 0; omega))
    rw [el, kron7, er]
  rw [Finset.sum_congr rfl (fun k _ => e k)]
  exact row_sum x0 x1 r.val r.isLt

end Cert.SiteGate

end
-- ==== Proof.KernelBlock.lean ====
/-
  What the kernel's body leaves in its output block, entry by entry.

  The body reads the 27 × 3 × 81 block `x` and the 3 × 3 matrix `M` and makes three stores, one per row `j` of `M`:
  into the slab `[·, j, ·]` of the output it writes `(M[j,0] · x[·,0,·] + M[j,1] · x[·,1,·]) + M[j,2] · x[·,2,·]`, each
  `x[·,i,·]` a 27 × 81 slab cut out of the block and each `M[j,i]` one entry spread over the slab. The three slabs are
  disjoint and fill the block, so the entry at `(a, j, b)` is the one the store of row `j` wrote.
-/
import proofs.«148769_j549755814197_2_alg».proof.Proof.Gen.KernelIdeal.Frame
import Idealize.ShloMosaic.Lib.Pipeline.Value
import Idealize.ShloMosaic.Lib.ValueIdx

noncomputable section

namespace Cert.SiteGate.Block

open Idealize.ShloMosaic Idealize.ShloMosaic.ValueIdx Cert.KernelIdeal Cert.KernelIdeal.Gen

/-- Row `j` of the matrix against the three entries of the block at `(a, ·, b)`, added from the left. -/
def rowOf (v0 : S27x3x81.Idx → EReal) (v2 : S3x3.Idx → EReal) (j : Fin 3) (a : Fin 27) (b : Fin 81) : EReal :=
  (v2 (ix2 j (0 : Fin 3)) * v0 (ix3 a (0 : Fin 3) b) + v2 (ix2 j (1 : Fin 3)) * v0 (ix3 a (1 : Fin 3) b))
    + v2 (ix2 j (2 : Fin 3)) * v0 (ix3 a (2 : Fin 3) b)

theorem hz3 : (![0, 0, 0] : Fin 3 → Nat) = fun _ => 0 := funext fun a => by fin_cases a <;> rfl
theorem hz2 : (![0, 0] : Fin 2 → Nat) = fun _ => 0 := funext fun a => by fin_cases a <;> rfl

/-- The slab `[·, i, ·]` of a 27 × 3 × 81 array, cut out and flattened to 27 × 81, at `(a, b)`. -/
theorem slab_at {α : Type} (X : S27x3x81.Idx → α) (off : Fin 3 → Nat) (h1 : S27x3x81.Slices off S27x1x81)
    (h2 : S27x1x81.ShapeCasts S27x81) (i : Fin 3) (e0 : off 0 = 0) (e1 : off 1 = i.val) (e2 : off 2 = 0) (a : Fin 27) (b : Fin 81) :
    shapeCast S27x81 (extractStridedSlice S27x1x81 off X h1) h2 (ix2 a b) = X (ix3 a i b) := by
  rw [shapeCast_apply _ h2 (ix2 a b) (ix3 a (0 : Fin 1) b) (by
    rewrite [Shape.rowMajor_val_three, Shape.rowMajor_val_two]
    show (a.val * 1 + 0) * 81 + b.val = a.val * 81 + b.val; omega)]
  exact extractStridedSlice_apply off X h1 (ix3 a (0 : Fin 1) b) (ix3 a i b) (fun d => by
    match d with
    | ⟨0, _⟩ => show a.val = off 0 + a.val; omega
    | ⟨1, _⟩ => show i.val = off 1 + 0; omega
    | ⟨2, _⟩ => show b.val = off 2 + b.val; omega)

/-- One entry of a 3 × 3 array, cut out as a 1 × 1 piece and read as a number. -/
theorem entry_at {α : Type} (M : S3x3.Idx → α) (off : Fin 2 → Nat) (h : S3x3.Slices off S1x1)
    (hp : ∀ a, (![0, 0] : Fin 2 → Nat) a < S1x1.size a) (p q : Fin 3) (e0 : off 0 = p.val) (e1 : off 1 = q.val) :
    extractAt ![0, 0] (extractStridedSlice S1x1 off M h) hp = M (ix2 p q) := by
  unfold extractAt
  exact extractStridedSlice_apply off M h (fun a => ⟨(![0, 0] : Fin 2 → Nat) a, hp a⟩) (ix2 p q) (fun d => by
    match d with
    | ⟨0, _⟩ => show p.val = off 0 + 0; omega
    | ⟨1, _⟩ => show q.val = off 1 + 0; omega)

/-- A 27 × 81 array given a unit middle axis, at `(a, 0, b)`. -/
theorem lift_at {α : Type} (X : S27x81.Idx → α) (h : S27x81.ShapeCasts S27x1x81) (a : Fin 27) (u : Fin 1) (b : Fin 81) :
    shapeCast S27x1x81 X h (ix3 a u b) = X (ix2 a b) :=
  shapeCast_apply X h (ix3 a u b) (ix2 a b) (by
    rewrite [Shape.rowMajor_val_two, Shape.rowMajor_val_three]
    have hu := u.isLt
    show a.val * 81 + b.val = (a.val * 1 + u.val) * 81 + b.val; omega)

/-- The first store's value: row 0 of the matrix. -/
theorem pay_row0 (v0 : Vec Ideal S27x3x81 .f32) (v2 : Vec Ideal S3x3 .f32) (a : Fin 27) (u : Fin 1) (b : Fin 81) :
    k0_pay4 (F := Ideal) v0 v2 (ix3 a u b) = rowOf v0 v2 0 a b := by
  unfold k0_pay4 k0_pay3
  rw [lift_at]
  simp only [shapeCast_self, addf_apply, mulf_apply, broadcast_apply]
  rw [entry_at v2 ![0, 0] _ _ 0 0 rfl rfl, entry_at v2 ![0, 1] _ _ 0 1 rfl rfl, entry_at v2 ![0, 2] _ _ 0 2 rfl rfl,
    slab_at v0 ![0, 0, 0] _ _ 0 rfl rfl rfl a b, slab_at v0 ![0, 1, 0] _ _ 1 rfl rfl rfl a b, slab_at v0 ![0, 2, 0] _ _ 2 rfl rfl rfl a b]
  rfl

/-- The value the second store is made from: row 1 of the matrix. -/
theorem pay_row1 (v0 : Vec Ideal S27x3x81 .f32) (v2 : Vec Ideal S3x3 .f32) (a : Fin 27) (b : Fin 81) :
    k0_pay5 (F := Ideal) v0 v2 (ix2 a b) = rowOf v0 v2 1 a b := by
  unfold k0_pay5 k0_pay3
  simp only [shapeCast_self, addf_apply, mulf_apply, broadcast_apply]
  rw [entry_at v2 ![1, 0] _ _ 1 0 rfl rfl, entry_at v2 ![1, 1] _ _ 1 1 rfl rfl, entry_at v2 ![1, 2] _ _ 1 2 rfl rfl,
    slab_at v0 ![0, 0, 0] _ _ 0 rfl rfl rfl a b, slab_at v0 ![0, 1, 0] _ _ 1 rfl rfl rfl a b, slab_at v0 ![0, 2, 0] _ _ 2 rfl rfl rfl a b]
  rfl

/-- The third store's value: row 2 of the matrix. -/
theorem pay_row2 (v1 : FVec Ideal S27x3x81 .f32) (v2 : Vec Ideal S3x3 .f32) (a : Fin 27) (u : Fin 1) (b : Fin 81) :
    k0_pay2 (F := Ideal) v1 v2 (ix3 a u b) = rowOf v1 v2 2 a b := by
  unfold k0_pay2
  rw [lift_at]
  simp only [addf_apply, mulf_apply, broadcast_apply]
  rw [entry_at v2 ![2, 0] _ _ 2 0 rfl rfl, entry_at v2 ![2, 1] _ _ 2 1 rfl rfl, entry_at v2 ![2, 2] _ _ 2 2 rfl rfl,
    slab_at v1 ![0, 0, 0] _ _ 0 rfl rfl rfl a b, slab_at v1 ![0, 1, 0] _ _ 1 rfl rfl rfl a b, slab_at v1 ![0, 2, 0] _ _ 2 rfl rfl rfl a b]
  rfl

/-- The output block after the body, at `(a, j, b)`: the slab `j` is the one the store of row `j` wrote, and no later
    store touches it. -/
theorem block_at (x0 : Vec Ideal S27x3x81 .f32) (x1 : Vec Ideal S3x3 .f32) (a : Fin 27) (j : Fin 3) (b : Fin 81) :
    out0_2 (F := Ideal) x0 x1 (ix3 a j b) = rowOf x0 x1 j a b := by
  unfold out0_2
  simp only [View.ld_unit_zero (S := S27x3x81) hz3, View.ld_unit_zero (S := S3x3) hz2]
  match j with
  | ⟨0, _⟩ =>
    have n4 : (ix3 a (0 : Fin 3) b : S27x3x81.Idx) ∉ r0_4.set := fun hm =>
      absurd (show (2 : ℕ) ≤ 0 from ((Rect.mem_set_unit.mp hm) 1).1) (by decide)
    have n3 : (ix3 a (0 : Fin 3) b : S27x3x81.Idx) ∉ r0_3.set := fun hm =>
      absurd (show (1 : ℕ) ≤ 0 from ((Rect.mem_set_unit.mp hm) 1).1) (by decide)
    have e : (ix3 a (0 : Fin 3) b : S27x3x81.Idx) = r0_2.emb (ix3 a (0 : Fin 1) b) := funext fun d => Fin.ext (by
      match d with
      | ⟨0, _⟩ => show a.val = 0 + 1 * a.val; omega
      | ⟨1, _⟩ => show 0 = 0 + 1 * 0; omega
      | ⟨2, _⟩ => show b.val = 0 + 1 * b.val; omega)
    show View.canon _ (ix3 a (0 : Fin 3) b) = _
    refine (View.canon_cons_of_not_mem (⟨r0_4, _⟩ : View.Piece (Elt Ideal) S27x3x81 .f32) _ n4).trans ?_
    refine (View.canon_cons_of_not_mem (⟨r0_3, _⟩ : View.Piece (Elt Ideal) S27x3x81 .f32) _ n3).trans ?_
    rw [e]
    refine (View.canon_cons_emb r0_2 _ _ (ix3 a (0 : Fin 1) b)).trans ?_
    exact pay_row0 x0 x1 a 0 b
  | ⟨1, _⟩ =>
    have n4 : (ix3 a (1 : Fin 3) b : S27x3x81.Idx) ∉ r0_4.set := fun hm =>
      absurd (show (2 : ℕ) ≤ 1 from ((Rect.mem_set_unit.mp hm) 1).1) (by decide)
    have e : (ix3 a (1 : Fin 3) b : S27x3x81.Idx) = r0_3.emb (ix3 a (0 : Fin 1) b) := funext fun d => Fin.ext (by
      match d with
      | ⟨0, _⟩ => show a.val = 0 + 1 * a.val; omega
      | ⟨1, _⟩ => show 1 = 1 + 1 * 0; omega
      | ⟨2, _⟩ => show b.val = 0 + 1 * b.val; omega)
    show View.canon _ (ix3 a (1 : Fin 3) b) = _
    refine (View.canon_cons_of_not_mem (⟨r0_4, _⟩ : View.Piece (Elt Ideal) S27x3x81 .f32) _ n4).trans ?_
    rw [e]
    refine (View.canon_cons_emb r0_3 _ _ (ix3 a (0 : Fin 1) b)).trans ?_
    unfold k0_pay1
    refine (lift_at _ _ a 0 b).trans ?_
    exact pay_row1 x0 x1 a b
  | ⟨2, _⟩ =>
    have e : (ix3 a (2 : Fin 3) b : S27x3x81.Idx) = r0_4.emb (ix3 a (0 : Fin 1) b) := funext fun d => Fin.ext (by
      match d with
      | ⟨0, _⟩ => show a.val = 0 + 1 * a.val; omega
      | ⟨1, _⟩ => show 2 = 2 + 1 * 0; omega
      | ⟨2, _⟩ => show b.val = 0 + 1 * b.val; omega)
    show View.canon _ (ix3 a (2 : Fin 3) b) = _
    rw [e]
    refine (View.canon_cons_emb r0_4 _ _ (ix3 a (0 : Fin 1) b)).trans ?_
    unfold k0_pay3
    rw [shapeCast_self]
    exact pay_row2 x0 x1 a 0 b

end Cert.SiteGate.Block

end
-- ==== Proof.KernelValue.lean ====
/-
  The kernel's result array.

  The grid has one point and every window's block is its whole array, so the block the body leaves in the output's
  staging buffer is written back as the whole 27 × 3 × 81 array. Before the launch the argument column of 6561
  entries is re-read as 27 × 3 × 81 (position `a·243 + i·81 + b` becomes `(a, i, b)`), and after it the output is
  re-read as a column the same way. So entry `r` of the result is the output block at
  `(r / 243, (r / 81) % 3, r % 81)`: row `(r / 81) % 3` of the matrix against the three entries of the column at
  positions `(r / 243)·243 + i·81 + r % 81` — the spec's three-term sum.
-/
import proofs.«148769_j549755814197_2_alg».proof.Proof.Gen.KernelIdeal.Frame
import proofs.«148769_j549755814197_2_alg».proof.Proof.KernelBlock
import proofs.«148769_j549755814197_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.SiteGate.Kernel

open Cert.KernelIdeal Cert.KernelIdeal.Gen Cert.SiteGate.Block

variable (m : (ℓ : Loc nD τ sig) → Buf (Elt Ideal) ℓ) (ρ : Dev nD → PrngReg)

/-- The output block the one grid point leaves. -/
abbrev result (c : Dev nD) : Buf (Elt Ideal) ((c : Thread nD τ).loc main_v1) :=
  out0_2 (F := Ideal) (iblk m c 0 t0_0) (iblk m c 1 t0_0)

/-- The first input block is the whole re-read column. -/
theorem iblk0_eq (c : Dev nD) : (iblk m c 0 t0_0 : Vec Ideal S27x3x81 .f32) = V m c main_v0 := by
  have hz' : (fun a => win0_0.index t0_0 a * main_v0.ty.shape.size a) = fun _ => 0 := funext fun a => by fin_cases a <;> decide
  exact Memref.read_access_unit_zero (Elt Ideal) main_v0 hz' (fun a => by rw [congrFun hz' a]; simp) (V m c main_v0)

/-- The second input block is the whole matrix. -/
theorem iblk1_eq (c : Dev nD) : (iblk m c 1 t0_0 : Vec Ideal S3x3 .f32) = V m c main_arg1 := by
  have hz' : (fun a => win0_1.index t0_0 a * main_arg1.ty.shape.size a) = fun _ => 0 := funext fun a => by fin_cases a <;> decide
  exact Memref.read_access_unit_zero (Elt Ideal) main_arg1 hz' (fun a => by rw [congrFun hz' a]; simp) (V m c main_arg1)

/-- The one write-back writes the whole output block. -/
theorem flushed_eq (c : Dev nD) (t : Fin cfg0.N) :
    (dats m 0 c).flushed 2 t = ((cfg0.win 2).blk t).view.read (Elt Ideal) (result m c) := by
  obtain rfl : t = t0_0 := fin_N0 t
  show (cfg0.win 2).cut (grid0.coords t0_0) ((dats m 0 c).after 2 t0_0) = _
  rw [after0_2]
  have hz' : (fun a => win0_2.index t0_0 a * main_v1.ty.shape.size a) = fun _ => 0 := funext fun a => by fin_cases a <;> decide
  exact (Memref.read_access_unit_zero (Elt Ideal) main_v1 hz' (fun a => by rw [congrFun hz' a]; simp) (result m c)).symm

/-- So the output array ends holding that block. -/
theorem final (c : Dev nD) : (dats m 0 c).arrAt 2 cfg0.N = result m c :=
  (dats m 0 c).arrAt_eq_of_cover 2 (result m c) (fun t _ => flushed_eq m c t) fun i =>
    ⟨t0_0, flush0_2 t0_0, by
      show i ∈ ((View.whole main_v1).slice (win0_2.rect t0_0)).set
      rw [View.set_slice_whole, Rect.mem_set_unit]
      intro a
      have h0 : (i 0 : Nat) < 27 := (i 0).isLt
      have h1 : (i 1 : Nat) < 3 := (i 1).isLt
      have h2 : (i 2 : Nat) < 81 := (i 2).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 27 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 3 from by decide +kernel]; omega
      | ⟨2, _⟩ => show win0_2.index t0_0 2 * win0_2.size 2 ≤ (i 2 : Nat) ∧ (i 2 : Nat) < win0_2.index t0_0 2 * win0_2.size 2 + win0_2.xsize (grid0.coords t0_0) 2
                  rw [show win0_2.index t0_0 2 * win0_2.size 2 = 0 from by decide +kernel, show win0_2.xsize (grid0.coords t0_0) 2 = 81 from by decide +kernel]; omega⟩

/-- The array the first window stages is the argument column re-read as 27 × 3 × 81. -/
theorem V_v0 (c : Dev nD) : (V m c main_v0 : S27x3x81.Idx → EReal)
    = shapeCast S27x3x81 (m ((c : Thread nD τ).loc main_arg0)) shapeCasts_S6561x1_S27x3x81 := by
  show StableHlo.after hostOps0 (fun b => m (c, b)) (Proc.devRef .tc main_v0) = _
  after_results
  rfl

/-- The argument column re-read as 27 × 3 × 81, at `(a, i, b)`: position `a·243 + i·81 + b` of the column. -/
theorem col_at (x : S6561x1.Idx → EReal) (h : S6561x1.ShapeCasts S27x3x81) (a : Fin 27) (i : Fin 3) (b : Fin 81) :
    shapeCast S27x3x81 x h (ix3 a i b) = colAt x (a.val * 243 + i.val * 81 + b.val) := by
  have ha := a.isLt; have hi := i.isLt; have hb := b.isLt
  unfold colAt
  exact shapeCast_apply x h (ix3 a i b) _ (by
    rewrite [Shape.rowMajor_val_two, Shape.rowMajor_val_three]
    show (a.val * 243 + i.val * 81 + b.val) % 6561 * 1 + 0 = (a.val * 3 + i.val) * 81 + b.val; omega)

/-- After the launch the output array is re-read as a column: what the result buffer ends holding. -/
theorem tail_eq (c : Dev nD) : Pipeline.afterTail₀ cfgs (dats m) 0 (V0 m) [hostOps1] c main_v2
    = shapeCast S6561x1 (result m c) shapeCasts_S27x3x81_S6561x1 := by
  unfold Pipeline.afterTail₀
  show StableHlo.after hostOps1 _ (Proc.devRef .tc main_v2) = _
  after_results
  exact congrArg (fun X => shapeCast S6561x1 X shapeCasts_S27x3x81_S6561x1)
    ((Pipeline.withArrays_arr spec0 launch0.win.arr_inj c _ _ 2).trans (final m c))

/-- Entry by entry, that column is the spec's array of the two arguments. -/
theorem value_eq (c : Dev nD) : shapeCast S6561x1 (result m c) shapeCasts_S27x3x81_S6561x1
    = G (m ((c : Thread nD τ).loc main_arg0)) (m ((c : Thread nD τ).loc main_arg1)) := by
  funext i
  obtain ⟨r, z, rfl⟩ : ∃ (r : Fin 6561) (z : Fin 1), i = ix2 r z := ⟨i 0, i 1, eq_ix2 i⟩
  have hr := r.isLt; have hz := z.isLt
  refine (shapeCast_apply (s := S27x3x81) (t := S6561x1) (result m c) shapeCasts_S27x3x81_S6561x1 (ix2 r z) (ix3 (⟨r.val / 243, by omega⟩ : Fin 27) (⟨r.val / 81 % 3, by omega⟩ : Fin 3) (⟨r.val % 81, by omega⟩ : Fin 81)) (by
    rewrite [Shape.rowMajor_val_three, Shape.rowMajor_val_two]
    show (r.val / 243 * 3 + r.val / 81 % 3) * 81 + r.val % 81 = r.val * 1 + z.val; omega)).trans ?_
  refine (congrFun (congrArg₂ (out0_2 (F := Ideal)) (iblk0_eq m c) (iblk1_eq m c)) _).trans ?_
  refine (block_at (V m c main_v0) (V m c main_arg1) (⟨r.val / 243, by omega⟩ : Fin 27) (⟨r.val / 81 % 3, by omega⟩ : Fin 3) (⟨r.val % 81, by omega⟩ : Fin 81)).trans ?_
  unfold rowOf
  rw [V_v0 m c, V_main_arg1 m c]
  rw [col_at _ _ (⟨r.val / 243, by omega⟩ : Fin 27) 0 (⟨r.val % 81, by omega⟩ : Fin 81), col_at _ _ (⟨r.val / 243, by omega⟩ : Fin 27) 1 (⟨r.val % 81, by omega⟩ : Fin 81), col_at _ _ (⟨r.val / 243, by omega⟩ : Fin 27) 2 (⟨r.val % 81, by omega⟩ : Fin 81)]
  rfl

/-- The kernel's run, read: the result buffer at the spec's array of the arguments, the arguments unchanged. -/
theorem run : θ_run defs (onTc (τ := τ) (main (F := Ideal))) ⟨m, fun _ => 0, ρ⟩ (fun r => ∀ c : Dev nD,
      r.2.mem ((c.tc : Thread nD τ).loc main_v2) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v2 (Pipeline.mem_restRefs_of main_v2 (by decide) (by decide))).trans ((tail_eq m c).trans (value_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.SiteGate.Kernel

end
-- ==== Proof.lean ====
/-
  One site of a chain of eight three-level systems.

  The state is a column `x` of 3^8 = 6561 entries, position `r` read in base 3; a 3 × 3 matrix `M` acts on the digit of
  site 3 and leaves the other seven digits alone. Writing `r = a·243 + j·81 + b` with `a < 27`, `j < 3`, `b < 81`,

      out[a·243 + j·81 + b] = (M[j,0] · x[a·243 + b] + M[j,1] · x[a·243 + 81 + b]) + M[j,2] · x[a·243 + 162 + b].

  The kernel computes exactly this: it re-reads `x` as a 27 × 3 × 81 block, forms for each `j` the three products and their
  sum from the left on 27 × 81 slabs, and re-reads the block as a column. The reference builds the 6561 × 6561 matrix
  `I₂₇ ⊗ M ⊗ I₈₁` by eight Kronecker products with 3 × 3 factors and multiplies it with `x`: entry `(R, S)` of that
  matrix is `M[(R / 81) % 3, (S / 81) % 3]` when `R` and `S` agree in every other digit and `0` otherwise, so of the 6561
  products in a row's sum all but three carry the factor `0`. On the extended reals `0 · y = 0` and `1 · y = y` for every
  `y`, and sums may be reordered, so the two results are equal entry by entry — for all inputs, finite or not.
  The idealized kernel is the kernel's own text (nothing was rewritten), so there is nothing to preserve.
-/
import proofs.«148769_j549755814197_2_alg».proof.Defs
import proofs.«148769_j549755814197_2_alg».proof.Proof.Gen.Kernel
import proofs.«148769_j549755814197_2_alg».proof.Proof.Gen.Kernel.Skeleton
import proofs.«148769_j549755814197_2_alg».proof.Proof.Gen.Kernel.Launch
import proofs.«148769_j549755814197_2_alg».proof.Proof.Gen.Kernel.Points
import proofs.«148769_j549755814197_2_alg».proof.Proof.Gen.Kernel.Frame
import proofs.«148769_j549755814197_2_alg».proof.Proof.Gen.KernelIdeal
import proofs.«148769_j549755814197_2_alg».proof.Proof.Gen.KernelIdeal.Skeleton
import proofs.«148769_j549755814197_2_alg».proof.Proof.Gen.KernelIdeal.Launch
import proofs.«148769_j549755814197_2_alg».proof.Proof.Gen.KernelIdeal.Points
import proofs.«148769_j549755814197_2_alg».proof.Proof.Gen.KernelIdeal.Frame
import proofs.«148769_j549755814197_2_alg».proof.Proof.Gen.ReferenceIdeal
import proofs.«148769_j549755814197_2_alg».proof.Proof.Gen.ReferenceIdeal.Run
import proofs.«148769_j549755814197_2_alg».proof.Proof.Gen.ReferenceIdeal.Read
import proofs.«148769_j549755814197_2_alg».proof.Proof.Gen.Pre_finite_inputs
import proofs.«148769_j549755814197_2_alg».proof.Proof.RefEntries
import proofs.«148769_j549755814197_2_alg».proof.Proof.KernelValue
import Idealize.ShloMosaic.Adequacy
import Idealize.ShloMosaic.Init

noncomputable section

namespace Cert.Proof

open Idealize.ShloMosaic Idealize.ShloMosaic.TcCoe Idealize.SL.Sem

/-- The kernel runs and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the three-term sum at every position of the result. -/
theorem algebraic : Cert.algebraic_KernelIdeal_ReferenceIdeal := by
  intro m ρ m' ρ' _ hagree
  refine ⟨fun c => Cert.SiteGate.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.SiteGate.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v20_eq _ _).trans (Cert.SiteGate.reference_eq _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
